-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S128x64 : Shape := ⟨2, ![128, 64]⟩
abbrev S1600000 : Shape := ⟨1, ![1600000]⟩
abbrev S1600000x41 : Shape := ⟨2, ![1600000, 41]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S1600000x41 : S_.BroadcastsInDim S1600000x41 (![] : Fin 0 → Fin S1600000x41.rank)
  reducesTo_S1600000x41_S_d0_1 : S1600000x41.ReducesTo [0, 1] S_

variable [Facts]

def fn {F : FTy → Type} [FloatOps F] (main_arg0 : FVec F S50000x64 .f32) (main_arg1 : FVec F S128x64 .f32) (main_arg2 : IVec S1600000 32) (main_arg3 : IVec S1600000 32) (main_arg4 : FVec F S1600000x41 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S1600000x41 .f32 := Host.absf main_arg4
  let main_cst_2 : FVec F S_ .f32 := constant S_ .f32 0x7F800000#32
  let main_v10 : FVec F S1600000x41 .f32 := broadcastInDim S1600000x41 ![] bcast_S_S1600000x41 main_cst_2
  let main_v11 : IVec S1600000x41 1 := cmpf .olt main_v9 main_v10
  let main_c_3 : IVec S_ 1 := constantI S_ 1 1#1
  let main_v12 : IVec S_ 1 := (fun x v => Host.reduce IntOp.andi x v reducesTo_S1600000x41_S_d0_1 h_S_) main_v11 main_c_3
  let main_v13 : IVec S_ 1 := andi main_v8 main_v12
  main_v13
-- ==== Kernel.lean ====
abbrev S50000x64 : Shape := ⟨2, ![50000, 64]⟩
abbrev S128x64 : Shape := ⟨2, ![128, 64]⟩
abbrev S1600000 : Shape := ⟨1, ![1600000]⟩
abbrev S1600000x41 : Shape := ⟨2, ![1600000, 41]⟩
abbrev S5000x64 : Shape := ⟨2, ![5000, 64]⟩
abbrev S5000x128 : Shape := ⟨2, ![5000, 128]⟩
abbrev S_ : Shape := ⟨0, ![]⟩
abbrev S1600000x1 : Shape := ⟨2, ![1600000, 1]⟩
abbrev S1600000x64 : Shape := ⟨2, ![1600000, 64]⟩

abbrev nBuf : Space → Nat
  | .hbm => 24
  | .vmem => 5
  | .smem => 0
  | _ => 0

abbrev bufTy : (tb : Table) → Fin (tcTables nBuf tb) → BufTy
  | .hbm, ⟨0, _⟩ => ⟨S50000x64, .f32⟩
  | .hbm, ⟨1, _⟩ => ⟨S128x64, .f32⟩
  | .hbm, ⟨2, _⟩ => ⟨S1600000, .i32⟩
  | .hbm, ⟨3, _⟩ => ⟨S1600000, .i32⟩
  | .hbm, ⟨4, _⟩ => ⟨S1600000x41, .f32⟩
  | .hbm, ⟨5, _⟩ => ⟨S50000x64, .f32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x64, .f32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  slices_S5000x128_o0_0_S5000x64 : S5000x128.Slices ![0, 0] S5000x64
  slices_S5000x128_o0_64_S5000x64 : S5000x128.Slices ![0, 64] S5000x64
  bcast_S_S1600000 : S_.BroadcastsInDim S1600000 (![] : Fin 0 → Fin S1600000.rank)
  bcast_S1600000_S1600000x1_0 : S1600000.BroadcastsInDim S1600000x1 (![0] : Fin 1 → Fin S1600000x1.rank)
  dot_S5000x64_S128x64_S5000x128_1_1_0_0_n_n_wf : DotDims.WF S5000x64 S128x64 S5000x128 [1] [1] [0] [0] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)

variable [Facts₀]

def dot_S5000x64_S128x64_S5000x128_1_1_0_0_n_n : DotDims S5000x64 S128x64 S5000x128 where
  lhsContracting := [1]
  rhsContracting := [1]
  lhsNonContracting := [0]
  rhsNonContracting := [0]
  lhsBatch := []
  rhsBatch := []
  wf := dot_S5000x64_S128x64_S5000x128_1_1_0_0_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x64 : Shape := ⟨2, ![50000, 64]⟩
abbrev S128x64 : Shape := ⟨2, ![128, 64]⟩
abbrev S1600000 : Shape := ⟨1, ![1600000]⟩
abbrev S1600000x41 : Shape := ⟨2, ![1600000, 41]⟩
abbrev S_ : Shape := ⟨0, ![]⟩
abbrev S1600000x1 : Shape := ⟨2, ![1600000, 1]⟩
abbrev S1600000x64 : Shape := ⟨2, ![1600000, 64]⟩
abbrev S64x128 : Shape := ⟨2, ![64, 128]⟩
abbrev S1600000x128 : Shape := ⟨2, ![1600000, 128]⟩

abbrev nBuf : Space → Nat
  | .hbm => 36
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S128x64, .f32⟩
  | .hbm, ⟨2, _⟩ => ⟨S1600000, .i32⟩
  | .hbm, ⟨3, _⟩ => ⟨S1600000, .i32⟩
  | .hbm, ⟨4, _⟩ => ⟨S1600000x41, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x64, .f32⟩
  | .hbm, ⟨14, _⟩ => ⟨S64x128, .f32⟩
  | .hbm, ⟨15, _⟩ => ⟨S1600000x128, .f32⟩
  | .hbm, ⟨16, _⟩ => ⟨S1600000x64, .f32⟩
  | .hbm, ⟨17, _⟩ => ⟨S1600000x64, .f32⟩
  | .hbm, ⟨18, _⟩ => ⟨S1600000x64, .f32⟩
  | .hbm, ⟨19, _⟩ => ⟨S1600000x64, .f32⟩
  | .hbm, ⟨20, _⟩ => ⟨S_, .f32⟩
  | .hbm, ⟨21, _⟩ => ⟨S1600000x64, .f32⟩
  | .hbm, ⟨22, _⟩ => ⟨S1600000x64, .f32⟩
  | .hbm, ⟨23, _⟩ => ⟨S_, .f32⟩
  | .hbm, ⟨24, _⟩ => ⟨S1600000x64, .f32⟩
  | .hbm, ⟨25, _⟩ => ⟨S1600000x64, .f32⟩
  | .hbm, ⟨26, _⟩ => ⟨S1600000x64, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  transposes_S128x64_S64x128_1_0 : S128x64.Transposes [1, 0] S64x128
  slices_S1600000x128_S1600000x64_0_0 : S1600000x128.Slices ![0, 0] S1600000x64
  slices_S1600000x128_S1600000x64_0_64 : S1600000x128.Slices ![0, 64] S1600000x64
  bcast_S_S1600000x64 : S_.BroadcastsInDim S1600000x64 (![] : Fin 0 → Fin S1600000x64.rank)
  gather_S50000x64_S1600000x1_S1600000x64_1_0_n_n_0_1_164_wf : GatherDims.WF S50000x64 S1600000x1 S1600000x64 [1] [0] [] [0] [] 1 ![1, 64]
  dot_S1600000x64_S64x128_S1600000x128_1_0_0_1_n_n_wf : DotDims.WF S1600000x64 S64x128 S1600000x128 [1] [0] [0] [1] [] []
  scatter_S50000x64_S1600000x1_S1600000x64_1_0_0_1_wf : ScatterDims.WF S50000x64 S1600000x1 S1600000x64 [1] [0] [0] 1

variable [Facts₀]

def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def dot_S1600000x64_S64x128_S1600000x128_1_0_0_1_n_n : DotDims S1600000x64 S64x128 S1600000x128 where
  lhsContracting := [1]
  rhsContracting := [0]
  lhsNonContracting := [0]
  rhsNonContracting := [1]
  lhsBatch := []
  rhsBatch := []
  wf := dot_S1600000x64_S64x128_S1600000x128_1_0_0_1_n_n_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf

class Facts : Prop extends Facts₀ where

variable [Facts]
-- ==== Proof.GateMessage.lean ====
/-
  The gated message of one node, as a function on the extended reals.

  A node has 64 features `x[r, ·]`. The weight matrix `W` has 128 rows of 64 entries: rows
  `0 … 63` are the GATE half and rows `64 … 127` the VALUE half (`jnp.split(·, 2, axis=1)` of
  `x @ W.T` splits the 128 output lanes in that order). The message of node `r` in lane `q` is

      logistic (∑ k, x[r, k] · W[q, k])  ·  ∑ k, x[r, k] · W[64 + q, k]

  — the logistic function of the gate half's inner product times the value half's inner product.
  It depends on row `r` of the table only; hence it does not matter whether rows are picked out of the
  table before the message is computed or out of the table of messages afterwards (`gateMsgAt_rows`).
  Nothing here needs the entries to be finite: the sums are over the same terms in the same form.
-/
import Idealize.ShloMosaic.PureOps.Ideal
import Idealize.ShloMosaic.Lib.ValueIdx

noncomputable section

open scoped BigOperators

namespace Cert.GateMessage

open Idealize.ShloMosaic Idealize.ShloMosaic.ValueIdx

/-- Row `q` of the weight matrix: lane `q` of the gate half. -/
abbrev gateRow (q : Fin 64) : Fin 128 := ⟨q.val, by omega⟩
/-- Row `64 + q` of the weight matrix: lane `q` of the value half. -/
abbrev valueRow (q : Fin 64) : Fin 128 := ⟨64 + q.val, by omega⟩

/-- The inner product of row `r` of a table with row `c` of the weight matrix. -/
def rowDot {R : Nat} (x : (⟨2, ![R, 64]⟩ : Shape).Idx → EReal) (W : (⟨2, ![128, 64]⟩ : Shape).Idx → EReal)
    (r : Fin R) (c : Fin 128) : EReal :=
  ∑ k : Fin 64, x (ix2 r k) * W (ix2 c k)

/-- The gated message of row `r` in lane `q`. -/
def gateMsgAt {R : Nat} (x : (⟨2, ![R, 64]⟩ : Shape).Idx → EReal) (W : (⟨2, ![128, 64]⟩ : Shape).Idx → EReal)
    (r : Fin R) (q : Fin 64) : EReal :=
  Ideal.logistic (rowDot x W r (gateRow q)) * rowDot x W r (valueRow q)

/-- The table of gated messages: one row of 64 lanes per row of the table. -/
def gateMsg {R : Nat} (x : (⟨2, ![R, 64]⟩ : Shape).Idx → EReal) (W : (⟨2, ![128, 64]⟩ : Shape).Idx → EReal) :
    (⟨2, ![R, 64]⟩ : Shape).Idx → EReal :=
  fun i => gateMsgAt x W ⟨(i 0).val, idx2_lt0 i⟩ ⟨(i 1).val, idx2_lt1 i⟩

theorem gateMsg_apply {R : Nat} (x : (⟨2, ![R, 64]⟩ : Shape).Idx → EReal) (W : (⟨2, ![128, 64]⟩ : Shape).Idx → EReal)
    (r : Fin R) (q : Fin 64) : gateMsg x W (ix2 r q) = gateMsgAt x W r q := rfl

/-- An inner product depends on one row of the table and one row of the weights. -/
theorem rowDot_congr {R R' : Nat} (x : (⟨2, ![R, 64]⟩ : Shape).Idx → EReal) (x' : (⟨2, ![R', 64]⟩ : Shape).Idx → EReal)
    (W W' : (⟨2, ![128, 64]⟩ : Shape).Idx → EReal) (r : Fin R) (r' : Fin R') (c : Fin 128)
    (hx : ∀ k : Fin 64, x (ix2 r k) = x' (ix2 r' k)) (hW : ∀ k : Fin 64, W (ix2 c k) = W' (ix2 c k)) :
    rowDot x W r c = rowDot x' W' r' c :=
  Finset.sum_congr rfl fun k _ => by rw [hx k, hW k]

/-- So does the message: two tables that agree on a row (and two weight matrices that agree) give that row the
    same message. -/
theorem gateMsgAt_congr {R R' : Nat} (x : (⟨2, ![R, 64]⟩ : Shape).Idx → EReal) (x' : (⟨2, ![R', 64]⟩ : Shape).Idx → EReal)
    (W W' : (⟨2, ![128, 64]⟩ : Shape).Idx → EReal) (r : Fin R) (r' : Fin R') (q : Fin 64)
    (hx : ∀ k : Fin 64, x (ix2 r k) = x' (ix2 r' k)) (hW : ∀ (c : Fin 128) (k : Fin 64), W (ix2 c k) = W' (ix2 c k)) :
    gateMsgAt x W r q = gateMsgAt x' W' r' q := by
  unfold gateMsgAt
  rw [rowDot_congr x x' W W' r r' (gateRow q) hx (hW _), rowDot_congr x x' W W' r r' (valueRow q) hx (hW _)]

/-- PICKING ROWS COMMUTES WITH THE MESSAGE: the message of row `e` of the table whose row `e` is row `ρ e` of `x`
    is the message of row `ρ e` of `x`. -/
theorem gateMsgAt_rows {N E : Nat} (x : (⟨2, ![N, 64]⟩ : Shape).Idx → EReal) (h : (⟨2, ![E, 64]⟩ : Shape).Idx → EReal)
    (W : (⟨2, ![128, 64]⟩ : Shape).Idx → EReal) (ρ : Fin E → Fin N) (e : Fin E) (q : Fin 64)
    (hh : ∀ k : Fin 64, h (ix2 e k) = x (ix2 (ρ e) k)) :
    gateMsgAt h W e q = gateMsgAt x W (ρ e) q :=
  gateMsgAt_congr h x W W e (ρ e) q hh fun _ _ => rfl

/-- The float literal `1.0` is the real number one. -/
theorem one_f32 : Ideal.ofBits .f32 0x3F800000#32 = 1 := by
  simp [Ideal.ofBits, Ideal.ieee, -EReal.coe_mul]; norm_num

/-- The logistic function spelt with the host's operations — a quotient of one by one plus the exponential of the
    negation — is the logistic function. -/
theorem host_logistic (s : EReal) :
    FloatOps.hostDivf (F := Ideal) (φ := .f32) (FloatOps.ofBits .f32 0x3F800000#32)
      (FloatOps.addf (FloatOps.ofBits .f32 0x3F800000#32) (FloatOps.hostUnary .exp (FloatOps.hostNegf s)))
    = Ideal.logistic s := by
  show Ideal.div (Ideal.ofBits .f32 0x3F800000#32) (Ideal.ofBits .f32 0x3F800000#32 + Ideal.exp (-s)) = Ideal.logistic s
  rw [one_f32]
  rfl

end Cert.GateMessage

end
-- ==== Proof.KernelBlock.lean ====
/-
  What the kernel body computes from one block of node features.

  The body loads a block of 5000 nodes (64 features each) and the whole weight matrix (128 rows of 64),
  multiplies the block by the transposed weights into 128 lanes — contracting the feature axis of both, so lane
  `c` of node `p` is the inner product of node `p` with weight row `c` —, takes lanes `0 … 63` as the gate and
  lanes `64 … 127` as the value, and stores logistic(gate) · value. The change of format on the way into the
  product is the identity on the extended reals, and the product starts from a zero accumulator, so at node `p`
  and lane `q` the stored value is the gated message of row `p` of the block (`GateMessage.gateMsgAt`).
-/
import proofs.«100716_j34754875359431_2_alg».proof.Proof.Gen.KernelIdeal.Skeleton
import proofs.«100716_j34754875359431_2_alg».proof.Proof.GateMessage
import Idealize.ShloMosaic.Lib.Pipeline.Value
import Idealize.ShloMosaic.Lib.ValueIdx
import Idealize.ShloMosaic.PureOps.Ideal.Laws

noncomputable section

open scoped BigOperators

namespace Cert.KernelIdeal.Block

open Cert.KernelIdeal Cert.KernelIdeal.Gen Cert.GateMessage
open Idealize.ShloMosaic Idealize.ShloMosaic.ValueIdx

/-- The product's dimension numbers: feature axis against feature axis, node axis then weight-row axis out. -/
abbrev prodDims : DotDims S5000x64 S128x64 S5000x128 := dot_S5000x64_S128x64_S5000x128_1_1_0_0_n_n

/-- The left operand is read at the output's node … -/
theorem lhs_node (i : S5000x128.Idx) (k : prodDims.contr.Idx) : (prodDims.lhsIdx i k 0).val = (i 0).val := by
  unfold DotDims.lhsIdx
  rw [dif_neg (show ¬(0 : Fin S5000x64.rank) ∈ prodDims.lhsBatch by decide),
    dif_pos (show (0 : Fin S5000x64.rank) ∈ prodDims.lhsNonContracting by decide)]
  rfl
/-- … and the contracted feature; -/
theorem lhs_feature (i : S5000x128.Idx) (k : prodDims.contr.Idx) :
    (prodDims.lhsIdx i k 1).val = (k ⟨0, by decide⟩).val :=
  prodDims.lhsIdx_val_of_single rfl i k
/-- the right operand at the output's lane (a weight row) … -/
theorem rhs_row (i : S5000x128.Idx) (k : prodDims.contr.Idx) : (prodDims.rhsIdx i k 0).val = (i 1).val := by
  unfold DotDims.rhsIdx
  rw [dif_neg (show ¬(0 : Fin S128x64.rank) ∈ prodDims.rhsBatch by decide),
    dif_pos (show (0 : Fin S128x64.rank) ∈ prodDims.rhsNonContracting by decide)]
  rfl
/-- … and the contracted feature. -/
theorem rhs_feature (i : S5000x128.Idx) (k : prodDims.contr.Idx) :
    (prodDims.rhsIdx i k 1).val = (k ⟨0, by decide⟩).val :=
  prodDims.rhsIdx_val_of_single rfl i k

/-- Lane `c` of node `p` of the product is the inner product of node `p` with weight row `c`. -/
theorem product_apply (x0 : FVec Ideal S5000x64 .f32) (x1 : FVec Ideal S128x64 .f32) (p : Fin 5000) (c : Fin 128) :
    matmul prodDims none (truncf .bf16 x0 bitsLt_bf16_f32) (truncf .bf16 x1 bitsLt_bf16_f32)
        (constant (F := Ideal) S5000x128 .f32 0x00000000#32) (ix2 p c)
      = rowDot x0 x1 p c := by
  unfold rowDot
  show FloatOps.matmul prodDims none (truncf .bf16 x0 bitsLt_bf16_f32) (truncf .bf16 x1 bitsLt_bf16_f32)
      (constant (F := Ideal) S5000x128 .f32 0x00000000#32) (ix2 p c) = _
  rw [Ideal.matmul_constant_zero_apply, ← Equiv.sum_comp (contrEquiv1 prodDims 64 rfl rfl).symm]
  refine Finset.sum_congr rfl fun k _ => ?_
  have hk := contrEquiv1_symm_val prodDims 64 rfl rfl k
  have el : prodDims.lhsIdx (ix2 p c) ((contrEquiv1 prodDims 64 rfl rfl).symm k) = ix2 p k :=
    funext fun a => Fin.ext (by
      match a with
      | ⟨0, _⟩ => exact lhs_node _ _
      | ⟨1, _⟩ => exact (lhs_feature _ _).trans hk)
  have er : prodDims.rhsIdx (ix2 p c) ((contrEquiv1 prodDims 64 rfl rfl).symm k) = ix2 c k :=
    funext fun a => Fin.ext (by
      match a with
      | ⟨0, _⟩ => exact rhs_row _ _
      | ⟨1, _⟩ => exact (rhs_feature _ _).trans hk)
  rw [el, er]
  rfl

/-- The first 64 lanes: lane `q` of the gate half is lane `q`. -/
theorem gate_half_apply (M : FVec Ideal S5000x128 .f32) (p : Fin 5000) (q : Fin 64) :
    extractStridedSlice S5000x64 ![0, 0] M slices_S5000x128_o0_0_S5000x64 (ix2 p q) = M (ix2 p (gateRow q)) :=
  extractStridedSlice_apply _ _ _ _ _ fun a => match a with
    | ⟨0, _⟩ => by show p.val = 0 + p.val; omega
    | ⟨1, _⟩ => by show q.val = 0 + q.val; omega

/-- The last 64 lanes: lane `q` of the value half is lane `64 + q`. -/
theorem value_half_apply (M : FVec Ideal S5000x128 .f32) (p : Fin 5000) (q : Fin 64) :
    extractStridedSlice S5000x64 ![0, 64] M slices_S5000x128_o0_64_S5000x64 (ix2 p q) = M (ix2 p (valueRow q)) :=
  extractStridedSlice_apply _ _ _ _ _ fun a => match a with
    | ⟨0, _⟩ => by show p.val = 0 + p.val; omega
    | ⟨1, _⟩ => by show 64 + q.val = 64 + q.val; omega

/-- WHAT THE BODY STORES at node `p`, lane `q`: the gated message of row `p` of the loaded block. -/
theorem stored_apply (x0 : Vec Ideal S5000x64 .f32) (x1 : Vec Ideal S128x64 .f32) (p : Fin 5000) (q : Fin 64) :
    k0_pay1 (F := Ideal) x0 x1 (ix2 p q) = gateMsgAt x0 x1 p q := by
  unfold k0_pay1 gateMsgAt
  show Ideal.logistic (extractStridedSlice S5000x64 ![0, 0] (_ : FVec Ideal S5000x128 .f32)
        slices_S5000x128_o0_0_S5000x64 (ix2 p q))
      * extractStridedSlice S5000x64 ![0, 64] (_ : FVec Ideal S5000x128 .f32)
        slices_S5000x128_o0_64_S5000x64 (ix2 p q) = _
  rw [gate_half_apply, value_half_apply, product_apply, product_apply]

end Cert.KernelIdeal.Block

end
-- ==== Proof.KernelArray.lean ====
/-
  The table of node messages the kernel leaves behind.

  The grid has ten points. Point `t` is handed rows `5000·t … 5000·t + 4999` of the node table (all 64 columns), the
  whole weight matrix, and writes back rows `5000·t … 5000·t + 4999` of the message table. What it writes at local row
  `p` and lane `q` is the gated message of row `p` of its block (`Block.stored_apply`), and row `p` of the block is row
  `5000·t + p` of the table: so every point writes a block of ONE function of the whole arrays, the table of gated
  messages `GateMessage.gateMsg x W`. The ten blocks tile the 50000 rows (row `r` lies in block `r / 5000`), so after
  the last point the message table is that function.
-/
import proofs.«100716_j34754875359431_2_alg».proof.Proof.Gen.KernelIdeal.Frame
import proofs.«100716_j34754875359431_2_alg».proof.Proof.KernelBlock
import Idealize.ShloMosaic.Lib.Pipeline.Value

noncomputable section

open scoped BigOperators

namespace Cert.KernelIdeal.Messages

open Cert.KernelIdeal Cert.KernelIdeal.Gen Cert.KernelIdeal.Block Cert.GateMessage
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

theorem zero_offsets : (![0, 0] : Fin 2 → Nat) = fun _ => 0 := funext fun a => by fin_cases a <;> rfl

/-- Which block each window holds at point `t`: the node table's and the message table's block `t` of rows, the one
    block of columns; the weight matrix whole. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of point `t`'s block of node features is row `5000·t + p` of the node table. -/
theorem features_block_apply (c : Dev nD) (t : Fin cfg0.N) (p : Fin 5000) (k : Fin 64) (r : Fin 50000)
    (hr : r.val = t.val * 5000 + p.val) :
    (iblk m c 0 t : Vec Ideal S5000x64 .f32) (ix2 p k) = (V m c main_arg0 : S50000x64.Idx → EReal) (ix2 r k) := by
  obtain ⟨e0, e1, -, -, -, -⟩ := block_indices t
  unfold iblk
  rw [View.read_apply]
  show (V m c main_arg0 : S50000x64.Idx → EReal) _ = _
  refine congrArg (V m c main_arg0 : S50000x64.Idx → EReal) ?_
  funext a
  apply Fin.ext
  match a with
  | ⟨0, _⟩ => show win0_0.index t (0 : Fin 2) * 5000 + 1 * p.val = r.val; omega
  | ⟨1, _⟩ => show win0_0.index t (1 : Fin 2) * 64 + 1 * k.val = k.val; omega

/-- Every point's block of the weight matrix is the weight matrix. -/
theorem weights_block_apply (c : Dev nD) (t : Fin cfg0.N) (w : Fin 128) (k : Fin 64) :
    (iblk m c 1 t : Vec Ideal S128x64 .f32) (ix2 w k) = (V m c main_arg1 : S128x64.Idx → EReal) (ix2 w k) := by
  obtain ⟨-, -, e2, e3, -, -⟩ := block_indices t
  unfold iblk
  rw [View.read_apply]
  show (V m c main_arg1 : S128x64.Idx → EReal) _ = _
  refine congrArg (V m c main_arg1 : S128x64.Idx → EReal) ?_
  funext a
  apply Fin.ext
  match a with
  | ⟨0, _⟩ => show win0_1.index t (0 : Fin 2) * 128 + 1 * w.val = w.val; omega
  | ⟨1, _⟩ => show win0_1.index t (1 : Fin 2) * 64 + 1 * k.val = k.val; omega

/-- The store of a body that was handed rows `5000·T … 5000·T + 4999` of a table `x` and the weight matrix `W`: at
    local index `j` it is the table of gated messages of `x` and `W` at the array index `i` that `j` sits at
    (row `5000·T + j₀`, lane `j₁`). -/
theorem stored_is_message_of (xb : Vec Ideal S5000x64 .f32) (wb : Vec Ideal S128x64 .f32)
    (x : S50000x64.Idx → EReal) (W : S128x64.Idx → EReal) (T : Nat)
    (hx : ∀ (p : Fin 5000) (k : Fin 64) (r : Fin 50000), r.val = T * 5000 + p.val → xb (ix2 p k) = x (ix2 r k))
    (hw : ∀ (w : Fin 128) (k : Fin 64), wb (ix2 w k) = W (ix2 w k))
    (j : S5000x64.Idx) (i : S50000x64.Idx)
    (h0 : (i 0).val = T * 5000 + (j 0).val) (h1 : (i 1).val = (j 1).val) :
    k0_pay1 (F := Ideal) xb wb j = gateMsg x W i := by
  obtain ⟨p, q, rfl⟩ : ∃ (p : Fin 5000) (q : Fin 64), j = ix2 p q := ⟨j 0, j 1, eq_ix2 j⟩
  obtain ⟨r, q', rfl⟩ : ∃ (r : Fin 50000) (q' : Fin 64), i = ix2 r q' := ⟨i 0, i 1, eq_ix2 i⟩
  obtain rfl : q = q' := Fin.ext h1.symm
  refine (stored_apply xb wb p q).trans ?_
  refine (gateMsgAt_congr xb x wb W p r q (fun k => hx p k r h0) hw).trans ?_
  exact (gateMsg_apply x W r q).symm

/-- What point `t` stores at local index `j` is the table of gated messages of the arrays at the array index `i`
    that `j` sits at. -/
theorem stored_is_message (c : Dev nD) (t : Fin cfg0.N) (j : S5000x64.Idx) (i : S50000x64.Idx)
    (h0 : (i 0).val = t.val * 5000 + (j 0).val) (h1 : (i 1).val = (j 1).val) :
    k0_pay1 (F := Ideal) (iblk m c 0 t) (iblk m c 1 t) j
      = gateMsg (V m c main_arg0 : S50000x64.Idx → EReal) (V m c main_arg1 : S128x64.Idx → EReal) i :=
  stored_is_message_of (iblk m c 0 t) (iblk m c 1 t) (V m c main_arg0 : S50000x64.Idx → EReal)
    (V m c main_arg1 : S128x64.Idx → EReal) t.val
    (fun p k r hr => features_block_apply m c t p k r hr) (fun w k => weights_block_apply m c t w k) j i h0 h1

/-- WHAT POINT `t` WRITES BACK is block `t` of the table of gated messages of the arrays as the region finds them. -/
theorem flushed_eq (c : Dev nD) (t : Fin cfg0.N) :
    (dats m 0 c).flushed 2 t = ((cfg0.win 2).blk t).view.read (Elt Ideal)
      (gateMsg (V m c main_arg0 : S50000x64.Idx → EReal) (V m c main_arg1 : S128x64.Idx → EReal)) := by
  show (cfg0.win 2).cut (grid0.coords t) ((dats m 0 c).after 2 t) = _
  rw [after0_2]
  unfold out0_2
  rw [View.canon_unit_zero zero_offsets]
  simp only [View.ld_unit_zero (S := S5000x64) zero_offsets, View.ld_unit_zero (S := S128x64) zero_offsets]
  obtain ⟨-, -, -, -, e4, e5⟩ := block_indices t
  funext j
  refine stored_is_message m c t j (((cfg0.win 2).blk t).view.emb j) ?_ ?_
  · show win0_2.index t (0 : Fin 2) * 5000 + 1 * (j 0).val = t.val * 5000 + (j 0).val; omega
  · show win0_2.index t (1 : Fin 2) * 64 + 1 * (j 1).val = (j 1).val; omega

/-- An index of the message table is in point `t`'s block iff each coordinate is in the block's range on its axis. -/
theorem mem_blk (t : Fin cfg0.N) (i : S50000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v0).slice (win0_2.rect t)).set ↔ _
  rw [View.set_slice_whole, Rect.mem_set_unit]
  exact Iff.rfl

/-- Every row lies in some point's block: row `r` in block `r / 5000`. -/
theorem cover (i : S50000x64.Idx) :
    ∃ t : Fin cfg0.N, (cfg0.win 2).flush t = true ∧ i ∈ ((cfg0.win 2).blk t).view.set := by
  have hi0 : (i 0).val < 50000 := idx2_lt0 i
  have hi1 : (i 1).val < 64 := idx2_lt1 i
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, e4, e5⟩ := block_indices t
  refine ⟨t, flush0_2 t, ?_⟩
  rw [mem_blk]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 64 ≤ (i 1).val ∧ (i 1).val < win0_2.index t (1 : Fin 2) * 64 + 64
    omega

/-- THE MESSAGE TABLE after the last point: the gated messages of the node table and the weight matrix. -/
theorem final (c : Dev nD) :
    (dats m 0 c).arrAt 2 cfg0.N
      = gateMsg (V m c main_arg0 : S50000x64.Idx → EReal) (V m c main_arg1 : S128x64.Idx → EReal) :=
  (dats m 0 c).arrAt_eq_of_cover 2 _ (fun t _ => flushed_eq m c t) cover

end Cert.KernelIdeal.Messages

end
-- ==== Proof.KernelRun.lean ====
/-
  The kernel program's result.

  After the ten grid points the program runs eighteen host operations: for the targets and for the sources it makes a
  row number non-negative (a negative one counts from the end: 50000 is added), lays the row numbers out as a column of
  start indices, GATHERS the rows of the message table at the targets — one row of 64 lanes per edge — and
  SCATTER-ADDS those rows into the node table at the sources. The message table is the table of gated messages
  (`Messages.final`); the node table and the index arrays are as launched, since the region only reads the first and
  never touches the others. So the result is

      scatterAdd  x  (rows sources)  (gather (gateMsg x W) (rows targets)).
-/
import proofs.«100716_j34754875359431_2_alg».proof.Proof.Gen.KernelIdeal.Frame
import proofs.«100716_j34754875359431_2_alg».proof.Proof.KernelArray
import Idealize.ShloMosaic.Lib.StableHlo.Run
import Idealize.ShloMosaic.Lib.Pipeline.Value

noncomputable section

namespace Cert.KernelIdeal.Tail

open Cert.KernelIdeal Cert.KernelIdeal.Gen Cert.KernelIdeal.Messages Cert.GateMessage
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- Row numbers made non-negative (a negative one counts from the end of the 50000 rows), as a column of start
    indices. -/
def rowColumn (s : (⟨S1600000, .i32⟩ : BufTy).Contents (Elt Ideal)) : (⟨S1600000x1, .i32⟩ : BufTy).Contents (Elt Ideal) :=
  broadcastInDim S1600000x1 ![0] Facts₀.bcast_S1600000_S1600000x1_0
    (select (cmpi .slt s (broadcastInDim S1600000 ![] Facts₀.bcast_S_S1600000 (constantI S_ 32 0#32)))
      (addi s (broadcastInDim S1600000 ![] Facts₀.bcast_S_S1600000 (constantI S_ 32 50000#32))) s)

/-- THE RESULT as a function of the node table `x`, the weights `W`, the edge sources `s` and the edge targets `t`:
    the message table's rows at the targets, added into the node table's rows at the sources. -/
def result (x : (⟨S50000x64, .f32⟩ : BufTy).Contents (Elt Ideal)) (W : (⟨S128x64, .f32⟩ : BufTy).Contents (Elt Ideal))
    (s t : (⟨S1600000, .i32⟩ : BufTy).Contents (Elt Ideal)) : (⟨S50000x64, .f32⟩ : BufTy).Contents (Elt Ideal) :=
  Host.scatterAdd (F := Ideal) (φ := .f32) scatter_S50000x64_S1600000x1_S1600000x64_1_0_0_1 x (rowColumn s)
    (Host.gather gather_S50000x64_S1600000x1_S1600000x64_1_0_n_n_0_1_164 (gateMsg x W) (rowColumn t))

/-- When the region is left the node table is as launched (it is only read); -/
theorem region_nodes (c : Dev nD) :
    Pipeline.withArrays (cfgs 0).spec c (V0 m c) (fun w => (dats m 0 c).arrAt w (cfgs 0).N) (Proc.devRef .tc main_arg0)
      = m ((c.tc : Thread nD τ).loc main_arg0) :=
  (Pipeline.withArrays_arr (cfgs 0).spec launch0.win.arr_inj c (V0 m c) (fun w => (dats m 0 c).arrAt w (cfgs 0).N) 0).trans
    (((dats m 0 c).arrAt_in 0 rfl _).trans ((A_eq m c 0).trans (V_main_arg0 m c)))

/-- the message table holds the gated messages of the node table and the weights; -/
theorem region_messages (c : Dev nD) :
    Pipeline.withArrays (cfgs 0).spec c (V0 m c) (fun w => (dats m 0 c).arrAt w (cfgs 0).N) (Proc.devRef .tc main_v0)
      = gateMsg (m ((c.tc : Thread nD τ).loc main_arg0)) (m ((c.tc : Thread nD τ).loc main_arg1)) :=
  (Pipeline.withArrays_arr (cfgs 0).spec launch0.win.arr_inj c (V0 m c) (fun w => (dats m 0 c).arrAt w (cfgs 0).N) 2).trans
    (final m c)

/-- the edge sources … -/
theorem region_sources (c : Dev nD) :
    Pipeline.withArrays (cfgs 0).spec c (V0 m c) (fun w => (dats m 0 c).arrAt w (cfgs 0).N) (Proc.devRef .tc main_arg2)
      = m ((c.tc : Thread nD τ).loc main_arg2) :=
  (Pipeline.withArrays_of_ne (cfgs 0).spec c (V0 m c) _ main_arg2
    (by exact (by decide : ∀ w, Pipeline.arrRef spec0 w ≠ main_arg2))).trans (V_main_arg2 m c)

/-- … and the edge targets are as launched (no window stages them). -/
theorem region_targets (c : Dev nD) :
    Pipeline.withArrays (cfgs 0).spec c (V0 m c) (fun w => (dats m 0 c).arrAt w (cfgs 0).N) (Proc.devRef .tc main_arg3)
      = m ((c.tc : Thread nD τ).loc main_arg3) :=
  (Pipeline.withArrays_of_ne (cfgs 0).spec c (V0 m c) _ main_arg3
    (by exact (by decide : ∀ w, Pipeline.arrRef spec0 w ≠ main_arg3))).trans (V_main_arg3 m c)

set_option maxHeartbeats 2000000 in
/-- The host operations after the region leave `result` of the launched arrays in the result buffer. -/
theorem tail_eq (c : Dev nD) :
    Pipeline.afterTail₀ cfgs (dats m) 0 (V0 m) [hostOps1] c main_v14
      = result (m ((c.tc : Thread nD τ).loc main_arg0)) (m ((c.tc : Thread nD τ).loc main_arg1))
          (m ((c.tc : Thread nD τ).loc main_arg2)) (m ((c.tc : Thread nD τ).loc main_arg3)) := by
  unfold Pipeline.afterTail₀
  simp only [List.flatten_cons, List.flatten_nil, List.append_nil]
  after_results_simp
  rw [region_nodes m c, region_sources m c, region_targets m c, region_messages m c]
  rfl

/-- THE RUN, READ: every weakly fair execution ends with the result buffer at `result` of the launched arrays and the
    five argument arrays unchanged. -/
theorem run : θ_run defs (onTc (τ := τ) (main (F := Ideal))) ⟨m, fun _ => 0, ρ⟩ (fun r => ∀ c : Dev nD,
      r.2.mem ((c.tc : Thread nD τ).loc main_v14)
        = result (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v14 (Pipeline.mem_restRefs_of main_v14 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Tail

end
-- ==== Proof.LibGatherRows.lean ====
/-
  A row gather read at an index.

  `table[idx]` for a table of `N` rows and `C` columns and `R` integer row numbers lowers to a
  `stablehlo.gather` whose start indices have shape `[R, 1]`, whose slices are one whole row
  (`slice_sizes = [1, C]`), with the row axis collapsed and the column axis the one offset axis.
  Result element `(e, j)` is then the table at row `clamp (idx[e, 0])` and column `j`, where the
  start index is read as a signed integer and clamped into `[0, N - 1]` (StableHLO clamps every
  start index so that the slice fits). In particular WHICH row is read depends on `e` and on the
  index array only, never on the table's contents nor on the column: a row gather commutes with any
  function applied row by row.
-/
import Idealize.ShloMosaic.Lib.ValueIdx

noncomputable section

namespace Cert.GatherRows

open Idealize.ShloMosaic Idealize.ShloMosaic.ValueIdx

variable {α : Type}

/-- The dimension numbers of a row gather: operand `[N, C]`, start indices `[R, 1]`, result `[R, C]`. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Where result row `e` finds its start index: position `[e, 0]` of the index array. -/
abbrev startPos {R : Nat} (e : Fin R) : (⟨2, ![R, 1]⟩ : Shape).Idx := ix2 e (⟨0, Nat.one_pos⟩ : Fin 1)

/-- The table row that result row `e` reads: its start index, read signed, clamped into `[0, N - 1]`. -/
def rowOf {R w : Nat} (N : Nat) (hN : 0 < N) (idx : IVec ⟨2, ![R, 1]⟩ w) (e : Fin R) : Fin N :=
  ⟨min (idx (startPos e)).toInt.toNat (N - 1), by omega⟩

/-- THE ROW GATHER READ AT `(e, j)`: the table at row `rowOf idx e`, column `j`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (j : Fin C) :
    Host.gather (rowDims N R C wf) x idx (ix2 e j) = x (ix2 (rowOf N hN idx e) j) := by
  unfold Host.gather
  refine congrArg x ?_
  funext a
  refine Fin.ext ?_
  show (rowDims N R C wf).start (ix2 e j) idx a + (rowDims N R C wf).batchCoord (ix2 e j) a
      + (rowDims N R C wf).offCoord (ix2 e j) a = _
  rw [GatherDims.batchCoord_eq_zero _ _ _ List.not_mem_nil, Nat.add_zero]
  match a with
  | ⟨0, _⟩ =>
    -- the row axis: collapsed, so no offset; the clamped start index
    show (rowDims N R C wf).start (ix2 e j) idx (0 : Fin 2) + (rowDims N R C wf).offCoord (ix2 e j) (0 : Fin 2)
      = (rowOf N hN idx e).val
    rw [GatherDims.offCoord_eq_zero _ _ _
      (fun h => ((GatherDims.mem_sKept _ _).mp h).1 (List.mem_singleton.mpr rfl)), Nat.add_zero]
    unfold GatherDims.start
    rw [dif_pos (show (0 : Fin 2) ∈ (rowDims N R C wf).startIndexMap from List.mem_singleton.mpr rfl)]
    have hsi : (rowDims N R C wf).siIdx (ix2 e j) ⟨List.idxOf (0 : Fin 2) (rowDims N R C wf).startIndexMap,
        List.idxOf_lt_length_iff.2 (List.mem_singleton.mpr rfl)⟩ = startPos e := by
      funext b; refine Fin.ext ?_
      match b with
      | ⟨0, _⟩ => rfl
      | ⟨1, _⟩ => rfl
    rw [hsi]
    rfl
  | ⟨1, _⟩ =>
    -- the column axis: not indexed, so the start is 0; the offset is the result's column
    have hs : (rowDims N R C wf).start (ix2 e j) idx (1 : Fin 2) = 0 := by
      unfold GatherDims.start
      rw [dif_neg (show ¬ (1 : Fin 2) ∈ [(0 : Fin 2)] from
        fun h => absurd (List.mem_singleton.mp h) (by decide))]
    have ho : (rowDims N R C wf).offCoord (ix2 e j) (1 : Fin 2) = j.val := by
      unfold GatherDims.offCoord
      rw [dif_pos ((GatherDims.mem_sKept _ _).mpr
        ⟨show ¬ (1 : Fin 2) ∈ [(0 : Fin 2)] from fun h => absurd (List.mem_singleton.mp h) (by decide),
          List.not_mem_nil⟩)]
      rfl
    show (rowDims N R C wf).start (ix2 e j) idx (1 : Fin 2) + (rowDims N R C wf).offCoord (ix2 e j) (1 : Fin 2) = j.val
    rw [hs, ho, Nat.zero_add]

end Cert.GatherRows

end
-- ==== Proof.ReferenceValue.lean ====
/-
  What the reference adds into the node table, edge by edge.

  The reference first gathers the target node's 64 features for every edge (`h = x[targets]`: row `e` of `h` is row
  `clamp(targets[e])` of `x`, after a negative index has been shifted by the number of nodes), multiplies `h` by the
  transposed weight matrix into 128 lanes, splits them into a gate half and a value half, and forms
  `1 / (1 + exp (- gate)) · value`. Lane `j'` of edge `e` of the product is the inner product of row `e` of `h` with row
  `j'` of the weights (the transpose only renames the index), and the quotient is the logistic function. So at edge
  `e` and lane `q` the update is the gated message of row `e` of `h`, which is the gated message of the gathered
  row of `x`: picking rows commutes with the message.
-/
import proofs.«100716_j34754875359431_2_alg».proof.Proof.Gen.ReferenceIdeal.Read
import proofs.«100716_j34754875359431_2_alg».proof.Proof.GateMessage
import proofs.«100716_j34754875359431_2_alg».proof.Proof.LibGatherRows

noncomputable section

open scoped BigOperators

namespace Cert.ReferenceIdeal.Edge

open Cert.ReferenceIdeal Cert.ReferenceIdeal.Gen Cert.ReferenceIdeal.Read Cert.GateMessage Cert.GatherRows
open Idealize.ShloMosaic Idealize.ShloMosaic.ValueIdx
open Facts₀

/-- The node that edge `e` reads: its (shifted) target index, clamped into the table. -/
abbrev targetRow (t : (⟨S1600000, .i32⟩ : BufTy).Contents (Elt Ideal)) (e : Fin 1600000) : Fin 50000 :=
  rowOf 50000 (by decide) (val_main_v5 (F := Ideal) t) e

/-- Row `e` of the gathered table is row `targetRow t e` of the node table. -/
theorem gathered_apply (x : (⟨S50000x64, .f32⟩ : BufTy).Contents (Elt Ideal))
    (t : (⟨S1600000, .i32⟩ : BufTy).Contents (Elt Ideal)) (e : Fin 1600000) (k : Fin 64) :
    val_main_v6 (F := Ideal) x t (ix2 e k) = x (ix2 (targetRow t e) k) := by
  unfold val_main_v6
  exact gather_rows_apply (by decide) Facts₀.gather_S50000x64_S1600000x1_S1600000x64_1_0_n_n_0_1_164_wf x
    (val_main_v5 (F := Ideal) t) e k

/-- Lane `q` of the gate half of the product, at edge `e`: row `e` of the gathered table against weight row `q`. -/
theorem gate_dot (x : (⟨S50000x64, .f32⟩ : BufTy).Contents (Elt Ideal)) (W : (⟨S128x64, .f32⟩ : BufTy).Contents (Elt Ideal))
    (t : (⟨S1600000, .i32⟩ : BufTy).Contents (Elt Ideal)) (e : Fin 1600000) (q : Fin 64) :
    (∑ k : Fin 64, val_main_v6 (F := Ideal) x t (lidx_main_v8 (idx_main_v9 (ix2 e q)) k)
        * val_main_v7 (F := Ideal) W (ridx_main_v8 (idx_main_v9 (ix2 e q)) k))
      = rowDot (val_main_v6 (F := Ideal) x t) W e (gateRow q) := by
  unfold rowDot
  refine Finset.sum_congr rfl fun k _ => ?_
  rw [val_main_v7_apply]
  have il : lidx_main_v8 (idx_main_v9 (ix2 e q)) k = ix2 e k :=
    funext fun a => Fin.ext (by match a with | ⟨0, _⟩ => rfl | ⟨1, _⟩ => rfl)
  have ir : idx_main_v7 (ridx_main_v8 (idx_main_v9 (ix2 e q)) k) = ix2 (gateRow q) k :=
    funext fun a => Fin.ext (by match a with | ⟨0, _⟩ => rfl | ⟨1, _⟩ => rfl)
  rw [il, ir]

/-- Lane `q` of the value half: row `e` of the gathered table against weight row `64 + q`. -/
theorem value_dot (x : (⟨S50000x64, .f32⟩ : BufTy).Contents (Elt Ideal)) (W : (⟨S128x64, .f32⟩ : BufTy).Contents (Elt Ideal))
    (t : (⟨S1600000, .i32⟩ : BufTy).Contents (Elt Ideal)) (e : Fin 1600000) (q : Fin 64) :
    (∑ k : Fin 64, val_main_v6 (F := Ideal) x t (lidx_main_v8 (idx_main_v10 (ix2 e q)) k)
        * val_main_v7 (F := Ideal) W (ridx_main_v8 (idx_main_v10 (ix2 e q)) k))
      = rowDot (val_main_v6 (F := Ideal) x t) W e (valueRow q) := by
  unfold rowDot
  refine Finset.sum_congr rfl fun k _ => ?_
  rw [val_main_v7_apply]
  have il : lidx_main_v8 (idx_main_v10 (ix2 e q)) k = ix2 e k :=
    funext fun a => Fin.ext (by match a with | ⟨0, _⟩ => rfl | ⟨1, _⟩ => rfl)
  have ir : idx_main_v7 (ridx_main_v8 (idx_main_v10 (ix2 e q)) k) = ix2 (valueRow q) k :=
    funext fun a => Fin.ext (by match a with | ⟨0, _⟩ => rfl | ⟨1, _⟩ => rfl)
  rw [il, ir]

/-- THE UPDATE at edge `e`, lane `q`: the gated message of the node the edge reads. -/
theorem update_apply (x : (⟨S50000x64, .f32⟩ : BufTy).Contents (Elt Ideal)) (W : (⟨S128x64, .f32⟩ : BufTy).Contents (Elt Ideal))
    (t : (⟨S1600000, .i32⟩ : BufTy).Contents (Elt Ideal)) (e : Fin 1600000) (q : Fin 64) :
    val_main_v17 (F := Ideal) x W t (ix2 e q) = gateMsgAt x W (targetRow t e) q := by
  rw [val_main_v17_apply, val_main_v16_apply, val_main_v15_apply, val_main_cst_1_apply, val_main_v14_apply,
    val_main_v13_apply, val_main_cst_apply, val_main_v12_apply, val_main_v11_apply, val_main_v9_apply,
    val_main_v10_apply, val_main_v8_apply, val_main_v8_apply, host_logistic, gate_dot, value_dot]
  exact gateMsgAt_rows x (val_main_v6 (F := Ideal) x t) W (targetRow t) e q fun k => gathered_apply x t e k

end Cert.ReferenceIdeal.Edge

end
-- ==== Proof.Bridge.lean ====
/-
  The two programs compute one function.

  Both end with the same scatter-add into the node table at the same source rows; what they add differs only in the
  ORDER of two steps. The reference picks each edge's target row out of the node table and then computes that row's gated
  message; the kernel computes every node's gated message once and then picks each edge's target row out of the message
  table. A row gather reads row `clamp(targets[e])` whatever the table holds (`GatherRows.gather_rows_apply`), and the
  gated message of a row depends on that row alone (`GateMessage.gateMsgAt_rows`), so edge by edge and lane by lane the
  two updates are the same extended real. The index preambles (a negative row number counts from the end) and the
  scatter's dimension numbers are the same text in both programs.
-/
import proofs.«100716_j34754875359431_2_alg».proof.Proof.KernelRun
import proofs.«100716_j34754875359431_2_alg».proof.Proof.ReferenceValue
import proofs.«100716_j34754875359431_2_alg».proof.Proof.LibGatherRows
import proofs.«100716_j34754875359431_2_alg».proof.Proof.GateMessage

noncomputable section

namespace Cert.Proof.Bridge

open Idealize.ShloMosaic Idealize.ShloMosaic.ValueIdx Cert.GateMessage Cert.GatherRows

/-- The reference's column of target rows is the kernel program's: the same operations on the same array. -/
theorem targets_column (t : (⟨Cert.ReferenceIdeal.S1600000, .i32⟩ : BufTy).Contents (Elt Ideal)) :
    Cert.ReferenceIdeal.Read.val_main_v5 (F := Ideal) t = Cert.KernelIdeal.Tail.rowColumn t := rfl

/-- So is its column of source rows. -/
theorem sources_column (s : (⟨Cert.ReferenceIdeal.S1600000, .i32⟩ : BufTy).Contents (Elt Ideal)) :
    Cert.ReferenceIdeal.Read.val_main_v23 (F := Ideal) s = Cert.KernelIdeal.Tail.rowColumn s := rfl

/-- The kernel program's update at edge `e`, lane `q`: the message table at the row the edge reads. -/
theorem kernel_update_apply (x : (⟨Cert.KernelIdeal.S50000x64, .f32⟩ : BufTy).Contents (Elt Ideal))
    (W : (⟨Cert.KernelIdeal.S128x64, .f32⟩ : BufTy).Contents (Elt Ideal))
    (t : (⟨Cert.KernelIdeal.S1600000, .i32⟩ : BufTy).Contents (Elt Ideal)) (e : Fin 1600000) (q : Fin 64) :
    Host.gather Cert.KernelIdeal.gather_S50000x64_S1600000x1_S1600000x64_1_0_n_n_0_1_164 (gateMsg x W)
        (Cert.KernelIdeal.Tail.rowColumn t) (ix2 e q)
      = gateMsgAt x W (rowOf 50000 (by decide) (Cert.KernelIdeal.Tail.rowColumn t) e) q :=
  (gather_rows_apply (by decide) Cert.KernelIdeal.Facts₀.gather_S50000x64_S1600000x1_S1600000x64_1_0_n_n_0_1_164_wf
    (gateMsg x W) (Cert.KernelIdeal.Tail.rowColumn t) e q).trans (gateMsg_apply x W _ q)

/-- THE UPDATES AGREE: gather-then-message is message-then-gather. -/
theorem updates_eq (x : (⟨Cert.ReferenceIdeal.S50000x64, .f32⟩ : BufTy).Contents (Elt Ideal))
    (W : (⟨Cert.ReferenceIdeal.S128x64, .f32⟩ : BufTy).Contents (Elt Ideal))
    (t : (⟨Cert.ReferenceIdeal.S1600000, .i32⟩ : BufTy).Contents (Elt Ideal)) :
    Cert.ReferenceIdeal.Read.val_main_v17 (F := Ideal) x W t
      = Host.gather Cert.KernelIdeal.gather_S50000x64_S1600000x1_S1600000x64_1_0_n_n_0_1_164 (gateMsg x W)
          (Cert.KernelIdeal.Tail.rowColumn t) := by
  funext i
  obtain ⟨e, q, rfl⟩ : ∃ (e : Fin 1600000) (q : Fin 64), i = ix2 e q := ⟨i 0, i 1, eq_ix2 i⟩
  refine (Cert.ReferenceIdeal.Edge.update_apply x W t e q).trans ?_
  refine Eq.trans ?_ (kernel_update_apply x W t e q).symm
  unfold Cert.ReferenceIdeal.Edge.targetRow
  rw [targets_column]

/-- THE RESULTS AGREE: the reference's result, as a function of the four arrays, is the kernel program's. -/
theorem result_eq (x : (⟨Cert.ReferenceIdeal.S50000x64, .f32⟩ : BufTy).Contents (Elt Ideal))
    (W : (⟨Cert.ReferenceIdeal.S128x64, .f32⟩ : BufTy).Contents (Elt Ideal))
    (s t : (⟨Cert.ReferenceIdeal.S1600000, .i32⟩ : BufTy).Contents (Elt Ideal)) :
    Cert.ReferenceIdeal.Read.val_main_v24 (F := Ideal) x W s t = Cert.KernelIdeal.Tail.result x W s t := by
  unfold Cert.ReferenceIdeal.Read.val_main_v24 Cert.KernelIdeal.Tail.result
  rw [updates_eq, sources_column]
  rfl

end Cert.Proof.Bridge

end
-- ==== Proof.lean ====
/-
  A gated message passed along every edge of a graph: the kernel against its reference, over the extended reals.

  50000 nodes carry 64 features each (`x`); a weight matrix `W` has 128 rows of 64, a gate half (rows 0 … 63) and a value
  half (rows 64 … 127); 1600000 edges each name a source and a target node. The gated message of a node is, lane by lane,

      msg[n, q] = logistic (∑ k, x[n, k] · W[q, k]) · ∑ k, x[n, k] · W[64 + q, k].

  The reference computes, for every edge, the message of the edge's target node — it first gathers the target's features,
  then multiplies by `Wᵀ`, splits, and gates — and adds it into row `source` of `x`. The kernel computes the message of
  every NODE once (ten grid points of 5000 nodes each, the change of format on the way into the product being the identity
  here), and the host operations after it gather each edge's row out of that message table and add it into row `source`.

  The two results are one function of the arguments because a row gather reads the same row whatever the table holds and
  the message of a row depends on that row alone (Proof/Bridge.lean); no algebraic law beyond that is used, so the
  inputs' finiteness is never needed. The modules:
    LibGatherRows   a row gather read at an index (general);
    GateMessage     the message as a function, its dependence on one row, the host's spelling of the logistic function;
    KernelBlock     what the kernel body stores, at a node and a lane;
    KernelArray     each grid point writes a block of one table; the ten blocks tile it;
    KernelRun       the host operations after the region, and the kernel program's run read as a value;
    ReferenceValue  the reference's update at an edge and a lane;
    Bridge          the two results are one function.
  The idealization rewrote nothing, so `preserves` has nothing to state.
-/
import proofs.«100716_j34754875359431_2_alg».proof.Defs
import proofs.«100716_j34754875359431_2_alg».proof.Proof.Gen.Kernel
import proofs.«100716_j34754875359431_2_alg».proof.Proof.Gen.Kernel.Skeleton
import proofs.«100716_j34754875359431_2_alg».proof.Proof.Gen.Kernel.Launch
import proofs.«100716_j34754875359431_2_alg».proof.Proof.Gen.Kernel.Points
import proofs.«100716_j34754875359431_2_alg».proof.Proof.Gen.Kernel.Frame
import proofs.«100716_j34754875359431_2_alg».proof.Proof.Gen.KernelIdeal
import proofs.«100716_j34754875359431_2_alg».proof.Proof.Gen.KernelIdeal.Skeleton
import proofs.«100716_j34754875359431_2_alg».proof.Proof.Gen.KernelIdeal.Launch
import proofs.«100716_j34754875359431_2_alg».proof.Proof.Gen.KernelIdeal.Points
import proofs.«100716_j34754875359431_2_alg».proof.Proof.Gen.KernelIdeal.Frame
import proofs.«100716_j34754875359431_2_alg».proof.Proof.Gen.ReferenceIdeal
import proofs.«100716_j34754875359431_2_alg».proof.Proof.Gen.Pre_finite_inputs
import proofs.«100716_j34754875359431_2_alg».proof.Proof.Gen.ReferenceIdeal.Run
import proofs.«100716_j34754875359431_2_alg».proof.Proof.Gen.ReferenceIdeal.Read
import proofs.«100716_j34754875359431_2_alg».proof.Proof.KernelRun
import proofs.«100716_j34754875359431_2_alg».proof.Proof.Bridge
import Idealize.ShloMosaic.Adequacy
import Idealize.ShloMosaic.Init

noncomputable section

namespace Cert.Proof

open Idealize.ShloMosaic Idealize.SL.Sem

/-- The kernel program runs and leaves its arguments unchanged. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference runs and leaves its arguments unchanged: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From memories that agree on the arguments both programs end with the same result: the message table's rows at the
    targets added into the node table at the sources (the kernel program's run), which is the reference's term of the
    same arguments (`Bridge.result_eq`). -/
theorem algebraic : Cert.algebraic_KernelIdeal_ReferenceIdeal := by
  intro m ρ m' ρ' _ hagree
  refine ⟨fun c => Cert.KernelIdeal.Tail.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Tail.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1]
  exact (Cert.ReferenceIdeal.Read.val_main_v24_eq _ _ _ _).trans (Cert.Proof.Bridge.result_eq _ _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
